-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S8192x1x64 : Shape := ⟨3, ![8192, 1, 64]⟩
abbrev S2048x64 : Shape := ⟨2, ![2048, 64]⟩
abbrev S64 : Shape := ⟨1, ![64]⟩
abbrev S4096 : Shape := ⟨1, ![4096]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S8192x1x64 : S_.BroadcastsInDim S8192x1x64 (![] : Fin 0 → Fin S8192x1x64.rank)
  reducesTo_S8192x1x64_S_d0_1_2 : S8192x1x64.ReducesTo [0, 1, 2] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1 .f32) (main_arg5 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S1 .f32) (main_arg1 : FVec F S8192x1x64 .f32) (main_arg2 : FVec F S2048x64 .f32) (main_arg3 : FVec F S64 .f32) (main_arg4 : FVec F S1 .f32) (main_arg5 : FVec F S4096 .f32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S8192x1x64 .f32 := Host.absf main_arg1
  let main_cst_0 : FVec F S_ .f32 := constant S_ .f32 0x7F800000#32
  let main_v5 : FVec F S8192x1x64 .f32 := broadcastInDim S8192x1x64 ![] bcast_S_S8192x1x64 main_cst_0
  let main_v6 : IVec S8192x1x64 1 := cmpf .olt main_v4 main_v5
  let main_c_1 : IVec S_ 1 := constantI S_ 1 1#1
  let main_v7 : IVec S_ 1 := (fun x v => Host.reduce IntOp.andi x v reducesTo_S8192x1x64_S_d0_1_2 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S1 : Shape := ⟨1, ![1]⟩
abbrev S8192x1x64 : Shape := ⟨3, ![8192, 1, 64]⟩
abbrev S2048x64 : Shape := ⟨2, ![2048, 64]⟩
abbrev S64 : Shape := ⟨1, ![64]⟩
abbrev S4096 : Shape := ⟨1, ![4096]⟩
abbrev S_ : Shape := ⟨0, ![]⟩
abbrev S1x64 : Shape := ⟨2, ![1, 64]⟩
abbrev S64x64 : Shape := ⟨2, ![64, 64]⟩
abbrev S32x64 : Shape := ⟨2, ![32, 64]⟩
abbrev S32 : Shape := ⟨1, ![32]⟩
abbrev S64x1 : Shape := ⟨2, ![64, 1]⟩
abbrev S2048 : Shape := ⟨1, ![2048]⟩
abbrev S2048x1 : Shape := ⟨2, ![2048, 1]⟩
abbrev S8192x64 : Shape := ⟨2, ![8192, 64]⟩
abbrev S512x64 : Shape := ⟨2, ![512, 64]⟩
abbrev S64x2048 : Shape := ⟨2, ![64, 2048]⟩
abbrev S512x2048 : Shape := ⟨2, ![512, 2048]⟩

abbrev nBuf : Space → Nat
  | .hbm => 62
  | .vmem => 7
  | .smem => 0
  | _ => 0

abbrev bufTy : (tb : Table) → Fin (tcTables nBuf tb) → BufTy
  | .hbm, ⟨0, _⟩ => ⟨S1, .f32⟩
  | .hbm, ⟨1, _⟩ => ⟨S8192x1x64, .f32⟩
  | .hbm, ⟨2, _⟩ => ⟨S2048x64, .f32⟩
  | .hbm, ⟨3, _⟩ => ⟨S64, .f32⟩
  | .hbm, ⟨4, _⟩ => ⟨S1, .f32⟩
  | .hbm, ⟨5, _⟩ => ⟨S4096, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S64x64, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x1, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S2048x64, .f32⟩
  | .hbm, ⟨48, _⟩ => ⟨S_, .f32⟩
  | .hbm, ⟨49, _⟩ => ⟨S2048x64, .f32⟩
  | .hbm, ⟨50, _⟩ => ⟨S2048x64, .f32⟩
  | .hbm, ⟨51, _⟩ => ⟨S2048, .f32⟩
  | .hbm, ⟨52, _⟩ => ⟨S2048, .f32⟩
  | .hbm, ⟨53, _⟩ => ⟨S2048x1, .f32⟩
  | .hbm, ⟨54, _⟩ => ⟨S2048x64, .f32⟩
  | .hbm, ⟨55, _⟩ => ⟨S2048x64, .f32⟩
  | .hbm, ⟨56, _⟩ => ⟨S2048x1, .f32⟩
  | .hbm, ⟨57, _⟩ => ⟨S2048x64, .f32⟩
  | .hbm, ⟨58, _⟩ => ⟨S2048x64, .f32⟩
  | .hbm, ⟨59, _⟩ => ⟨S8192x64, .f32⟩
  | .hbm, ⟨60, _⟩ => ⟨S8192x64, .f32⟩
  | .hbm, ⟨61, _⟩ => ⟨S8192x1x64, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S512x64, .f32⟩
  | .local _ .vmem, ⟨6, _⟩ => ⟨S512x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_c : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S64x64 : S_.BroadcastsInDim S64x64 (![] : Fin 0 → Fin S64x64.rank)
  slices_S64x64_S32x64_32_0 : S64x64.Slices ![32, 0] S32x64
  slices_S64x64_S32x64_0_0 : S64x64.Slices ![0, 0] S32x64
  concatenates_S32x64_S32x64_S64x64_d0 : Shape.Concatenates [S32x64, S32x64] S64x64 0
  bcast_S_S32 : S_.BroadcastsInDim S32 (![] : Fin 0 → Fin S32.rank)
  concatenates_S32_S32_S64_d0 : Shape.Concatenates [S32, S32] S64 0
  shapeCasts_S1_S_ : S1.ShapeCasts S_
  pads_S64_S64_000 : S64.Pads (![0] : Fin 1 → Nat) ![0] ![0] S64
  h_S_ : 0 < S_.numel
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  bcast_S_S2048x64 : S_.BroadcastsInDim S2048x64 (![] : Fin 0 → Fin S2048x64.rank)
  slices_S4096_S2048_0 : S4096.Slices ![0] S2048
  slices_S4096_S2048_2048 : S4096.Slices ![2048] S2048
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S8192x1x64_S8192x64 : S8192x1x64.ShapeCasts S8192x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  transposes_S2048x64_p1_0_S64x2048 : S2048x64.Transposes [1, 0] S64x2048
  shapeCasts_S8192x64_S8192x1x64 : S8192x64.ShapeCasts S8192x1x64
  dot_S2048x64_S64x64_S2048x64_1_0_0_1_n_n_wf : DotDims.WF S2048x64 S64x64 S2048x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S8192x64.size a
  hwx0_4 : ∀ i : grid0.Coords, EltTy.bits .f32 = 32 ∨ (Rect.block (s := S8192x64) S512x64.size (cc0_transform_4 i) (hinb0_4 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v36) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S512x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1 : Shape := ⟨1, ![1]⟩
abbrev S8192x1x64 : Shape := ⟨3, ![8192, 1, 64]⟩
abbrev S2048x64 : Shape := ⟨2, ![2048, 64]⟩
abbrev S64 : Shape := ⟨1, ![64]⟩
abbrev S4096 : Shape := ⟨1, ![4096]⟩
abbrev S_ : Shape := ⟨0, ![]⟩
abbrev S1x64 : Shape := ⟨2, ![1, 64]⟩
abbrev S64x64 : Shape := ⟨2, ![64, 64]⟩
abbrev S32x64 : Shape := ⟨2, ![32, 64]⟩
abbrev S32 : Shape := ⟨1, ![32]⟩
abbrev S64x1 : Shape := ⟨2, ![64, 1]⟩
abbrev S8192x64 : Shape := ⟨2, ![8192, 64]⟩
abbrev S64x2048 : Shape := ⟨2, ![64, 2048]⟩
abbrev S8192x2048 : Shape := ⟨2, ![8192, 2048]⟩
abbrev S2048 : Shape := ⟨1, ![2048]⟩
abbrev S2048x1 : Shape := ⟨2, ![2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S1, .f32⟩
  | .hbm, ⟨1, _⟩ => ⟨S8192x1x64, .f32⟩
  | .hbm, ⟨2, _⟩ => ⟨S2048x64, .f32⟩
  | .hbm, ⟨3, _⟩ => ⟨S64, .f32⟩
  | .hbm, ⟨4, _⟩ => ⟨S1, .f32⟩
  | .hbm, ⟨5, _⟩ => ⟨S4096, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S1x64, .f32⟩
  | .hbm, ⟨10, _⟩ => ⟨S2048x64, .f32⟩
  | .hbm, ⟨11, _⟩ => ⟨S2048x64, .f32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S64x64, .i1⟩
  | .hbm, ⟨18, _⟩ => ⟨S64x64, .f32⟩
  | .hbm, ⟨19, _⟩ => ⟨S32x64, .f32⟩
  | .hbm, ⟨20, _⟩ => ⟨S32x64, .f32⟩
  | .hbm, ⟨21, _⟩ => ⟨S32x64, .f32⟩
  | .hbm, ⟨22, _⟩ => ⟨S64x64, .f32⟩
  | .hbm, ⟨23, _⟩ => ⟨S_, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64x64, .i32⟩
  | .hbm, ⟨33, _⟩ => ⟨S64x64, .i32⟩
  | .hbm, ⟨34, _⟩ => ⟨S_, .i32⟩
  | .hbm, ⟨35, _⟩ => ⟨S64x64, .i32⟩
  | .hbm, ⟨36, _⟩ => ⟨S64x64, .i32⟩
  | .hbm, ⟨37, _⟩ => ⟨S64x64, .i1⟩
  | .hbm, ⟨38, _⟩ => ⟨S64x1, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S2048x64, .f32⟩
  | .hbm, ⟨48, _⟩ => ⟨S_, .f32⟩
  | .hbm, ⟨49, _⟩ => ⟨S2048x64, .f32⟩
  | .hbm, ⟨50, _⟩ => ⟨S2048x64, .f32⟩
  | .hbm, ⟨51, _⟩ => ⟨S8192x64, .f32⟩
  | .hbm, ⟨52, _⟩ => ⟨S64x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S2048, .f32⟩
  | .hbm, ⟨58, _⟩ => ⟨S2048, .f32⟩
  | .hbm, ⟨59, _⟩ => ⟨S8192x2048, .f32⟩
  | .hbm, ⟨60, _⟩ => ⟨S8192x2048, .f32⟩
  | .hbm, ⟨61, _⟩ => ⟨S2048x1, .f32⟩
  | .hbm, ⟨62, _⟩ => ⟨S2048x64, .f32⟩
  | .hbm, ⟨63, _⟩ => ⟨S2048x64, .f32⟩
  | .hbm, ⟨64, _⟩ => ⟨S8192x64, .f32⟩
  | .hbm, ⟨65, _⟩ => ⟨S8192x2048, .f32⟩
  | .hbm, ⟨66, _⟩ => ⟨S2048x1, .f32⟩
  | .hbm, ⟨67, _⟩ => ⟨S2048x64, .f32⟩
  | .hbm, ⟨68, _⟩ => ⟨S2048x64, .f32⟩
  | .hbm, ⟨69, _⟩ => ⟨S8192x64, .f32⟩
  | .hbm, ⟨70, _⟩ => ⟨S8192x64, .f32⟩
  | .hbm, ⟨71, _⟩ => ⟨S8192x1x64, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_c : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_cst_0 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S2048x64_0_1 : S1x64.BroadcastsInDim S2048x64 (![0, 1] : Fin 2 → Fin S2048x64.rank)
  bcast_S_S64x64 : S_.BroadcastsInDim S64x64 (![] : Fin 0 → Fin S64x64.rank)
  slices_S64x64_S32x64_32_0 : S64x64.Slices ![32, 0] S32x64
  slices_S64x64_S32x64_0_0 : S64x64.Slices ![0, 0] S32x64
  concatenates_S32x64_S32x64_S64x64_d0 : Shape.Concatenates [S32x64, S32x64] S64x64 0
  bcast_S_S32 : S_.BroadcastsInDim S32 (![] : Fin 0 → Fin S32.rank)
  concatenates_S32_S32_S64_d0 : Shape.Concatenates [S32, S32] S64 0
  shapeCasts_S1_S_ : S1.ShapeCasts S_
  pads_S64_S64_000 : S64.Pads (![0] : Fin 1 → Nat) ![0] ![0] S64
  h_S_ : 0 < S_.numel
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  transposes_S64x64_S64x64_1_0 : S64x64.Transposes [1, 0] S64x64
  bcast_S_S2048x64 : S_.BroadcastsInDim S2048x64 (![] : Fin 0 → Fin S2048x64.rank)
  shapeCasts_S8192x1x64_S8192x64 : S8192x1x64.ShapeCasts S8192x64
  transposes_S2048x64_S64x2048_1_0 : S2048x64.Transposes [1, 0] S64x2048
  bcast_S_S8192x2048 : S_.BroadcastsInDim S8192x2048 (![] : Fin 0 → Fin S8192x2048.rank)
  slices_S4096_S2048_0 : S4096.Slices ![0] S2048
  slices_S4096_S2048_2048 : S4096.Slices ![2048] S2048
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  shapeCasts_S8192x64_S8192x1x64 : S8192x64.ShapeCasts S8192x1x64
  dot_S2048x64_S64x64_S2048x64_1_0_0_1_n_n_wf : DotDims.WF S2048x64 S64x64 S2048x64 [1] [0] [0] [1] [] []
  dot_S8192x64_S64x2048_S8192x2048_1_0_0_1_n_n_wf : DotDims.WF S8192x64 S64x2048 S8192x2048 [1] [0] [0] [1] [] []
  dot_S8192x2048_S2048x64_S8192x64_1_0_0_1_n_n_wf : DotDims.WF S8192x2048 S2048x64 S8192x64 [1] [0] [0] [1] [] []

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S8192x64_S64x2048_S8192x2048_1_0_0_1_n_n : DotDims S8192x64 S64x2048 S8192x2048 where
  lhsContracting := [1]
  rhsContracting := [0]
  lhsNonContracting := [0]
  rhsNonContracting := [1]
  lhsBatch := []
  rhsBatch := []
  wf := dot_S8192x64_S64x2048_S8192x2048_1_0_0_1_n_n_wf
def dot_S8192x2048_S2048x64_S8192x64_1_0_0_1_n_n : DotDims S8192x2048 S2048x64 S8192x64 where
  lhsContracting := [1]
  rhsContracting := [0]
  lhsNonContracting := [0]
  rhsNonContracting := [1]
  lhsBatch := []
  rhsBatch := []
  wf := dot_S8192x2048_S2048x64_S8192x64_1_0_0_1_n_n_wf

class Facts : Prop extends Facts₀ where

variable [Facts]
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.Features.lean ====
/-
  Random trigonometric features, as one function of four arrays.

  For a table `X` of `R` rows of 64 numbers, a table `S` of 2048 frequency rows of 64 numbers, and two weight tables
  `MS`, `MC` of 2048 rows of 64 numbers, the phase of row `p` against frequency `k` is
  `2π · ∑ j, X (p, j) · S (k, j)` (the factor `2π` is the 32-bit word `0x40C90FDB`, never evaluated), and the feature
  of row `p` in column `q` is
      `∑ k, (−sin (phase p k)) · MS (k, q)  +  ∑ k, cos (phase p k) · MC (k, q)`.
  Every operation is the one on the extended reals; nothing here needs the entries to be finite.

  Also here: a product of an `M × K` by a `K × N` array contracted over the shared axis, read at `(p, q)` as the
  sum over `k` of `A (p, k) · B (k, q)`, both for the product accumulated into a zero array and for the plain product.
-/
import proofs.«128586_j44787918963385_1_alg».proof.Proof.LibDotSum

noncomputable section

namespace Cert.Features

open Idealize.ShloMosaic Idealize.ShloMosaic.ValueIdx

/-- The word the programs multiply a phase by (the single-precision value nearest `2π`), left unevaluated. -/
abbrev twoPi : EReal := Ideal.ofBits .f32 0x40C90FDB#32

/-- The phase of row `p` of `X` against frequency row `k` of `S`. -/
def phase {R : Nat} (X : (⟨2, ![R, 64]⟩ : Shape).Idx → EReal) (S : (⟨2, ![2048, 64]⟩ : Shape).Idx → EReal)
    (p : Fin R) (k : Fin 2048) : EReal :=
  twoPi * ∑ j : Fin 64, X (ix2 p j) * S (ix2 k j)

/-- The feature of row `p` in column `q`: minus the sines of the row's phases weighted by column `q` of `MS`, plus
    the cosines weighted by column `q` of `MC`. -/
def rowFeat {R : Nat} (X : (⟨2, ![R, 64]⟩ : Shape).Idx → EReal) (S MS MC : (⟨2, ![2048, 64]⟩ : Shape).Idx → EReal)
    (p : Fin R) (q : Fin 64) : EReal :=
  (∑ k : Fin 2048, (-Ideal.sin (phase X S p k)) * MS (ix2 k q))
    + ∑ k : Fin 2048, Ideal.cos (phase X S p k) * MC (ix2 k q)

/-- The whole table of features of 8192 rows. -/
def feat (X : (⟨2, ![8192, 64]⟩ : Shape).Idx → EReal) (S MS MC : (⟨2, ![2048, 64]⟩ : Shape).Idx → EReal) :
    (⟨2, ![8192, 64]⟩ : Shape).Idx → EReal :=
  fun i => rowFeat X S MS MC (i 0) (i 1)

/-- The table of features laid out as 8192 × 1 × 64 (the same entries in the same order), as both programs return it. -/
def result (X : (⟨2, ![8192, 64]⟩ : Shape).Idx → EReal) (S MS MC : (⟨2, ![2048, 64]⟩ : Shape).Idx → EReal) :
    (⟨3, ![8192, 1, 64]⟩ : Shape).Idx → EReal :=
  shapeCast ⟨3, ![8192, 1, 64]⟩ (feat X S MS MC) (by decide)

/-- A row's features depend only on that row: two tables that agree on a row (row `p` of one, row `p'` of the other)
    give the same features there. -/
theorem rowFeat_congr {R R' : Nat} (X : (⟨2, ![R, 64]⟩ : Shape).Idx → EReal) (X' : (⟨2, ![R', 64]⟩ : Shape).Idx → EReal)
    (S MS MC : (⟨2, ![2048, 64]⟩ : Shape).Idx → EReal) (p : Fin R) (p' : Fin R') (q : Fin 64)
    (h : ∀ j : Fin 64, X (ix2 p j) = X' (ix2 p' j)) : rowFeat X S MS MC p q = rowFeat X' S MS MC p' q := by
  have hp : ∀ k, phase X S p k = phase X' S p' k := fun k => by
    unfold phase
    exact congrArg (twoPi * ·) (Finset.sum_congr rfl fun j _ => by rw [h j])
  unfold rowFeat
  simp only [hp]

/-! ## A contraction over the shared axis, at an entry -/

/-- A product accumulated into the zero array is, at `(p, q)`, the sum over `k` of `A (p, k) · B (k, q)`. -/
theorem matmul_zero_at {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q)
      = ∑ k : Fin K, A (ix2 p k) * B (ix2 k q) :=
  (Ideal.matmul_constant_zero_apply D prec A B (ix2 p q)).trans
    (Cert.LibDotSum.sum_dot D hr hs hl0 hl1 hr0 hr1 A B p q)

/-- The plain product is, at `(p, q)`, the same sum. -/
theorem dotGeneral_at {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : FVec Ideal ⟨2, ![M, K]⟩ φ₁) (B : FVec Ideal ⟨2, ![K, N]⟩ φ₂) (p : Fin M) (q : Fin N) :
    Host.dotGeneral D prec A B (ix2 p q) = ∑ k : Fin K, A (ix2 p k) * B (ix2 k q) :=
  (Ideal.dotGeneral_apply D prec _ A B (ix2 p q)).trans
    (Cert.LibDotSum.sum_dot D hr hs hl0 hl1 hr0 hr1 A B p q)

end Cert.Features

end
-- ==== Proof.KernelPayload.lean ====
/-
  What the kernel's body stores, at an entry.

  The body takes a block `x` of 512 rows and the three whole tables `s`, `ms`, `mc`, and stores
  `(0 − sin φ) · ms + cos φ · mc` (two products of a `512 × 2048` by a `2048 × 64` array, each accumulated into zero)
  where `φ = 2π · (x · sᵀ)` is the `512 × 2048` array of the block's phases. Read at `(p, q)` on the extended reals this
  is the feature of row `p` of the block in column `q`: the transposed table read at `(j, k)` is `s (k, j)`, each
  product is the sum over its shared axis, and `0 − y = −y`.
-/
import proofs.«128586_j44787918963385_1_alg».proof.Proof.Gen.KernelIdeal.Skeleton
import proofs.«128586_j44787918963385_1_alg».proof.Proof.Features
import Idealize.ShloMosaic.Lib.Pipeline.Value
import Idealize.ShloMosaic.Lib.ValueIdx

noncomputable section

namespace Cert.KernelIdeal.Body

open Cert.KernelIdeal Cert.KernelIdeal.Facts₀ Cert.Features
open Idealize.ShloMosaic Idealize.ShloMosaic.ValueIdx Idealize.ShloMosaic.Pipeline

/-- The block's phases: `2π` times the product of the block with the transposed frequency table. -/
def blockPhase (x : Vec Ideal S512x64 .f32) (s : Vec Ideal S2048x64 .f32) : FVec Ideal S512x2048 .f32 :=
  mulf (broadcast S512x2048 (Scalar.ofBits (F := Ideal) .f32 0x40C90FDB#32))
    (matmul dot_S512x64_S64x2048_S512x2048_1_0_0_1_n_n (some .fp32)
      (shapeCast S512x64 x shapeCasts_S512x64_S512x64 : FVec Ideal S512x64 .f32)
      (transpose S64x2048 [1, 0] (shapeCast S2048x64 s shapeCasts_S2048x64_S2048x64 : FVec Ideal S2048x64 .f32)
        transposes_S2048x64_p1_0_S64x2048 : FVec Ideal S64x2048 .f32)
      (constant S512x2048 .f32 0x00000000#32))

/-- The stored value is minus-sine of the phases times `ms` plus cosine of the phases times `mc`. -/
theorem pay_eq (x : Vec Ideal S512x64 .f32) (s ms mc : Vec Ideal S2048x64 .f32) :
    Gen.k0_pay1 (F := Ideal) x s ms mc
      = addf
          (matmul dot_S512x2048_S2048x64_S512x64_1_0_0_1_n_n (some .fp32)
            (subf (broadcast S512x2048 (Scalar.ofBits (F := Ideal) .f32 0x00000000#32)) (sin (blockPhase x s)))
            (shapeCast S2048x64 ms shapeCasts_S2048x64_S2048x64 : FVec Ideal S2048x64 .f32) (constant S512x64 .f32 0x00000000#32))
          (matmul dot_S512x2048_S2048x64_S512x64_1_0_0_1_n_n (some .fp32)
            (cos (blockPhase x s))
            (shapeCast S2048x64 mc shapeCasts_S2048x64_S2048x64 : FVec Ideal S2048x64 .f32) (constant S512x64 .f32 0x00000000#32)) := rfl

/-- A phase of the block at `(p, k)`: row `p` of the block against frequency row `k`. -/
theorem blockPhase_at (x : Vec Ideal S512x64 .f32) (s : Vec Ideal S2048x64 .f32) (p : Fin 512) (k : Fin 2048) :
    blockPhase x s (ix2 p k) = phase x s p k := by
  unfold blockPhase phase
  refine (mulf_apply _ _ _).trans ?_
  refine congrArg (twoPi * ·) ?_
  refine (matmul_zero_at dot_S512x64_S64x2048_S512x2048_1_0_0_1_n_n (some .fp32) rfl rfl
    (fun _ _ => rfl) (fun _ _ => rfl) (fun _ _ => rfl) (fun _ _ => rfl) _ _ p k).trans ?_
  refine Finset.sum_congr rfl fun j _ => ?_
  rw [shapeCast_self, shapeCast_self]
  refine congrArg (x (ix2 p j) * ·) ?_
  exact transpose_apply [1, 0] s transposes_S2048x64_p1_0_S64x2048 (ix2 j k) (ix2 k j) fun b => by
    match b with
    | ⟨0, _⟩ => rfl
    | ⟨1, _⟩ => rfl

/-- The stored value at `(p, q)` is the feature of row `p` of the block in column `q`. -/
theorem pay_at (x : Vec Ideal S512x64 .f32) (s ms mc : Vec Ideal S2048x64 .f32) (p : Fin 512) (q : Fin 64) :
    Gen.k0_pay1 (F := Ideal) x s ms mc (ix2 p q) = rowFeat x s ms mc p q := by
  rw [pay_eq]
  unfold rowFeat
  refine (addf_apply _ _ _).trans ?_
  refine congrArg₂ (· + ·) ?_ ?_
  · refine (matmul_zero_at dot_S512x2048_S2048x64_S512x64_1_0_0_1_n_n (some .fp32) rfl rfl
      (fun _ _ => rfl) (fun _ _ => rfl) (fun _ _ => rfl) (fun _ _ => rfl) _ _ p q).trans ?_
    refine Finset.sum_congr rfl fun k _ => ?_
    rw [shapeCast_self]
    refine congrArg (· * ms (ix2 k q)) ?_
    show Ideal.ofBits .f32 0x00000000#32 - Ideal.sin (blockPhase x s (ix2 p k)) = -Ideal.sin (phase x s p k)
    rw [blockPhase_at, Ideal.ofBits_zero_f32, zero_sub]
  · refine (matmul_zero_at dot_S512x2048_S2048x64_S512x64_1_0_0_1_n_n (some .fp32) rfl rfl
      (fun _ _ => rfl) (fun _ _ => rfl) (fun _ _ => rfl) (fun _ _ => rfl) _ _ p q).trans ?_
    refine Finset.sum_congr rfl fun k _ => ?_
    rw [shapeCast_self]
    refine congrArg (· * mc (ix2 k q)) ?_
    show Ideal.cos (blockPhase x s (ix2 p k)) = Ideal.cos (phase x s p k)
    rw [blockPhase_at]

end Cert.KernelIdeal.Body

end
-- ==== Proof.KernelBlocks.lean ====
/-
  From the blocks the kernel writes to the whole output array.

  The grid has 16 points. At point `t` the kernel is given rows `512·t … 512·t + 511` of the reshaped input and the whole
  of the three tables (their block index is always zero and their block is the whole table), and writes back rows
  `512·t … 512·t + 511` of the output. A row's features depend on that row of the input only, so what point `t` writes
  back is block `t` of the table of features of the whole input; the 16 blocks cover all 8192 rows (row `r` lies in block
  `r / 512`), so after the run the output array is that table.
-/
import proofs.«128586_j44787918963385_1_alg».proof.Proof.Gen.KernelIdeal.Frame
import proofs.«128586_j44787918963385_1_alg».proof.Proof.KernelPayload
import Idealize.ShloMosaic.Lib.Pipeline.Value

noncomputable section

namespace Cert.KernelIdeal.Blocks

open Cert.KernelIdeal Cert.KernelIdeal.Gen Cert.Features
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the 16 points: the input's block moves with the output's along the rows, the
    three tables' block index is zero, and the output's row-block index is the point's number. -/
theorem index_maps : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- At one entry: if the input block's row `y 0` is row `i 0` of the whole input, the three loaded tables are the whole
    tables and the columns agree, the stored value at `y` is the feature at `i`. -/
theorem stored_at (x0 : Vec Ideal S512x64 .f32) (x1 x2 x3 : Vec Ideal S2048x64 .f32)
    (X : S8192x64.Idx → EReal) (S MS MC : S2048x64.Idx → EReal) (y : S512x64.Idx) (i : S8192x64.Idx)
    (hq : (i 1).val = (y 1).val) (hx : ∀ j : Fin 64, x0 (ix2 (y 0) j) = X (ix2 (i 0) j))
    (h1 : x1 = S) (h2 : x2 = MS) (h3 : x3 = MC) :
    k0_pay1 (F := Ideal) x0 x1 x2 x3 y = feat X S MS MC i := by
  subst h1 h2 h3
  obtain ⟨p, q, rfl⟩ : ∃ (p : Fin 512) (q : Fin 64), y = ix2 p q := ⟨y 0, y 1, eq_ix2 y⟩
  obtain ⟨n, q', rfl⟩ : ∃ (n : Fin 8192) (q' : Fin 64), i = ix2 n q' := ⟨i 0, i 1, eq_ix2 i⟩
  have hqq : q' = q := Fin.ext hq
  subst hqq
  rw [Cert.KernelIdeal.Body.pay_at]
  exact rowFeat_congr x0 X x1 x2 x3 p n q' hx

/-- The input window's block at point `t`, read at row `y 0`, is the reshaped input at the row the output's block puts
    `y` on: both blocks start at row `512·t`. -/
theorem read_x (c : Dev nD) (t : Fin cfg0.N) (y : ((cfg0.win 4).xblock (cfg0.grid.coords t)).Idx) (j : Fin 64) :
    iblk m c 0 t (ix2 (y 0) j) = V m c main_v36 (ix2 ((((cfg0.win 4).blk t).view.emb y) 0) j) := by
  obtain ⟨e00, e01, -, -, -, -, -, -, -, -⟩ := index_maps t
  show V m c main_v36 (((cfg0.win 0).blk t).view.emb (ix2 (y 0) j))
    = V m c main_v36 (ix2 ((((cfg0.win 4).blk t).view.emb y) 0) j)
  refine congrArg (V m c main_v36) (funext fun a => Fin.ext ?_)
  match a with
  | ⟨0, _⟩ =>
    show win0_0.index t (0 : Fin 2) * 512 + 1 * (y 0).val = win0_4.index t (0 : Fin 2) * 512 + 1 * (y 0).val
    rw [e00]
  | ⟨1, _⟩ =>
    show win0_0.index t (1 : Fin 2) * 64 + 1 * j.val = j.val
    rw [e01]; omega

/-- The frequency table's block at any point is the whole table. -/
theorem read_s (c : Dev nD) (t : Fin cfg0.N) : (iblk m c 1 t : Vec Ideal S2048x64 .f32) = V m c main_v4 := by
  obtain ⟨-, -, e10, e11, -, -, -, -, -, -⟩ := index_maps t
  funext z
  show V m c main_v4 (((cfg0.win 1).blk t).view.emb z) = V m c main_v4 z
  refine congrArg (V m c main_v4) (funext fun a => Fin.ext ?_)
  match a with
  | ⟨0, _⟩ => show win0_1.index t (0 : Fin 2) * 2048 + 1 * (z 0).val = (z 0).val; rw [e10]; omega
  | ⟨1, _⟩ => show win0_1.index t (1 : Fin 2) * 64 + 1 * (z 1).val = (z 1).val; rw [e11]; omega

/-- The sine weights' block at any point is the whole table. -/
theorem read_ms (c : Dev nD) (t : Fin cfg0.N) : (iblk m c 2 t : Vec Ideal S2048x64 .f32) = V m c main_v32 := by
  obtain ⟨-, -, -, -, e20, e21, -, -, -, -⟩ := index_maps t
  funext z
  show V m c main_v32 (((cfg0.win 2).blk t).view.emb z) = V m c main_v32 z
  refine congrArg (V m c main_v32) (funext fun a => Fin.ext ?_)
  match a with
  | ⟨0, _⟩ => show win0_2.index t (0 : Fin 2) * 2048 + 1 * (z 0).val = (z 0).val; rw [e20]; omega
  | ⟨1, _⟩ => show win0_2.index t (1 : Fin 2) * 64 + 1 * (z 1).val = (z 1).val; rw [e21]; omega

/-- The cosine weights' block at any point is the whole table. -/
theorem read_mc (c : Dev nD) (t : Fin cfg0.N) : (iblk m c 3 t : Vec Ideal S2048x64 .f32) = V m c main_v35 := by
  obtain ⟨-, -, -, -, -, -, e30, e31, -, -⟩ := index_maps t
  funext z
  show V m c main_v35 (((cfg0.win 3).blk t).view.emb z) = V m c main_v35 z
  refine congrArg (V m c main_v35) (funext fun a => Fin.ext ?_)
  match a with
  | ⟨0, _⟩ => show win0_3.index t (0 : Fin 2) * 2048 + 1 * (z 0).val = (z 0).val; rw [e30]; omega
  | ⟨1, _⟩ => show win0_3.index t (1 : Fin 2) * 64 + 1 * (z 1).val = (z 1).val; rw [e31]; omega

/-- What point `t` writes back is block `t` of the table of features of the arrays as the region finds them. -/
theorem flushed_eq (c : Dev nD) (t : Fin cfg0.N) :
    (dats m 0 c).flushed 4 t = ((cfg0.win 4).blk t).view.read (Elt Ideal)
      (feat (V m c main_v36) (V m c main_v4) (V m c main_v32) (V m c main_v35)) := by
  show (cfg0.win 4).cut (grid0.coords t) ((dats m 0 c).after 4 t) = _
  rw [after0_4]
  unfold out0_4
  rw [View.canon_unit_zero zero_offsets]
  simp only [View.ld_unit_zero (S := S512x64) zero_offsets, View.ld_unit_zero (S := S2048x64) zero_offsets]
  obtain ⟨-, -, -, -, -, -, -, -, -, e41⟩ := index_maps t
  funext y
  refine stored_at (iblk m c 0 t) (iblk m c 1 t) (iblk m c 2 t) (iblk m c 3 t)
    (V m c main_v36) (V m c main_v4) (V m c main_v32) (V m c main_v35) y (((cfg0.win 4).blk t).view.emb y) ?_
    (read_x m c t y) (read_s m c t) (read_ms m c t) (read_mc m c t)
  show win0_4.index t (1 : Fin 2) * 64 + 1 * (y 1).val = (y 1).val
  rw [e41]; omega

/-- An index of the output array is in point `t`'s block iff each coordinate is in the block's range on its axis. -/
theorem mem_block (t : Fin cfg0.N) (i : S8192x64.Idx) :
    i ∈ ((cfg0.win 4).blk t).view.set ↔ ∀ a : Fin 2, win0_4.index t a * S512x64.size a ≤ (i a).val
      ∧ (i a).val < win0_4.index t a * S512x64.size a + S512x64.size a := by
  show i ∈ ((View.whole main_v37).slice (win0_4.rect t)).set ↔ _
  rw [View.set_slice_whole, Rect.mem_set_unit]
  exact Iff.rfl

/-- Every row of the output lies in the block of the point numbered by the row divided by 512. -/
theorem covered (i : S8192x64.Idx) :
    ∃ t : Fin cfg0.N, (cfg0.win 4).flush t = true ∧ i ∈ ((cfg0.win 4).blk t).view.set := by
  have hi0 : (i 0).val < 8192 := (i 0).isLt
  have hi1 : (i 1).val < 64 := (i 1).isLt
  have hN : cfg0.N = 16 := N_0
  have hlt : (i 0).val / 512 < cfg0.N := by rw [hN]; omega
  refine ⟨⟨(i 0).val / 512, hlt⟩, flush0_4 _, ?_⟩
  rw [mem_block]
  obtain ⟨e00, e01, e10, e11, e20, e21, e30, e31, e40, e41⟩ := index_maps ⟨(i 0).val / 512, hlt⟩
  have e40' : win0_4.index ⟨(i 0).val / 512, hlt⟩ (0 : Fin 2) = (i 0).val / 512 := e40
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e40']; omega
  | ⟨1, _⟩ =>
    show win0_4.index ⟨(i 0).val / 512, hlt⟩ (1 : Fin 2) * 64 ≤ (i 1).val
      ∧ (i 1).val < win0_4.index ⟨(i 0).val / 512, hlt⟩ (1 : Fin 2) * 64 + 64
    rw [e41]; omega

/-- After the run the output array is the table of features of the arrays as the region finds them. -/
theorem final (c : Dev nD) :
    (dats m 0 c).arrAt 4 cfg0.N = feat (V m c main_v36) (V m c main_v4) (V m c main_v32) (V m c main_v35) :=
  (dats m 0 c).arrAt_eq_of_cover 4 _ (fun t _ => flushed_eq m c t) covered

end Cert.KernelIdeal.Blocks

end
-- ==== Proof.KernelRun.lean ====
/-
  The kernel's program, run: its result is the table of features of what the host operations before the launch computed.

  The generated frame run leaves the launch's output array at what the 16 points wrote back — the table of features of
  the reshaped input and the three tables as the launch finds them (the blocks-to-array step) — and the one host
  operation after the launch re-lays that array as 8192 × 1 × 64. The arguments end unchanged.
-/
import proofs.«128586_j44787918963385_1_alg».proof.Proof.KernelBlocks
import Idealize.ShloMosaic.Lib.StableHlo.Run

noncomputable section

namespace Cert.KernelIdeal.Whole

open Cert.KernelIdeal Cert.KernelIdeal.Gen Cert.Features
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The launch leaves its output array at the table of features. -/
theorem region_exit (c : Dev nD) :
    Pipeline.withArrays spec0 c (V0 m c) (fun w => (dats m 0 c).arrAt w cfg0.N) (Proc.devRef .tc main_v37)
      = feat (V m c main_v36) (V m c main_v4) (V m c main_v32) (V m c main_v35) :=
  (Pipeline.withArrays_arr spec0 launch0.win.arr_inj c _ _ 4).trans (Cert.KernelIdeal.Blocks.final m c)

/-- After the operation that follows the launch, the result buffer holds the table re-laid as 8192 × 1 × 64. -/
theorem tail_result (c : Dev nD) :
    Pipeline.afterTail₀ cfgs (dats m) 0 (V0 m) [hostOps1] c main_v38
      = result (V m c main_v36) (V m c main_v4) (V m c main_v32) (V m c main_v35) := by
  unfold Pipeline.afterTail₀
  show StableHlo.after hostOps1 _ (Proc.devRef .tc main_v38) = _
  after_results
  rw [region_exit]
  rfl

/-- Every weakly fair execution of the kernel's program terminates with the result buffer at the table of features
    (re-laid) of the arrays the launch finds, and the arguments unchanged. -/
theorem run : θ_run defs (onTc (τ := τ) (main (F := Ideal))) ⟨m, fun _ => 0, ρ⟩ fun r => ∀ c : Dev nD,
      r.2.mem ((c.tc : Thread nD τ).loc main_v38) = result (V m c main_v36) (V m c main_v4) (V m c main_v32) (V m c main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v38 (Pipeline.mem_restRefs_of main_v38 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Whole

end
-- ==== Proof.ReferenceLine.lean ====
/-
  The reference program as a straight line of host operations, and its run.

  The reference computes the frequency table `s = ε / (2π·λ)`, the `64 × 64` array `A = M − η²·diag r` (with `M` the
  two halves of the identity swapped, the lower one negated, and `r` zero on the first 32 places and one on the rest —
  the diagonal array is built by a function the program calls, whose lines are listed here at the call, over the call's
  own buffers), the table `mat = 2π · (s · Aᵀ)`, the phases `2π · (x · sᵀ)` of all 8192 rows at once, and
  `(−sin φ) · (mat · w_s) + cos φ · (mat · w_c)`. It launches nothing, so every weakly fair execution is the
  operations in order: each buffer ends at the fold of their results over the launch contents.
-/
import proofs.«128586_j44787918963385_1_alg».proof.Proof.Gen.ReferenceIdeal
import Idealize.ShloMosaic.Lib.StableHlo.Run

noncomputable section

namespace Cert.ReferenceIdeal.Line

open Cert.ReferenceIdeal Cert.ReferenceIdeal.Facts₀
open Idealize.ShloMosaic Idealize.ShloMosaic.TcCoe Idealize.SL.Sem Idealize.ShloMosaic.StableHlo

variable {F : FTy → Type} [FloatOps F]

/-- What a buffer of shape `s` and element type `e` holds. -/
abbrev Cn (F : FTy → Type) (s : Shape) (e : EltTy) : Type := (⟨s, e⟩ : BufTy).Contents (Elt F)

/-- The reference's sixty-six operations, in order: twenty-four of its own, the thirteen of the diagonal-array
    function (ten of its own, then the three of the selection it calls), and twenty-nine more. -/
abbrev ops : List (HloOp τ sig (Elt F)) :=
  [ nullary main_cst (constant S_ .f32 0x40C90FDB#32),
    unary main_cst main_v0 (broadcastInDim S64 ![] bcast_S_S64 : Cn F S_ .f32 → Cn F S64 .f32),
    binary main_v0 main_arg3 main_v1 (mulf : Cn F S64 .f32 → Cn F S64 .f32 → Cn F S64 .f32),
    unary main_v1 main_v2 (broadcastInDim S1x64 ![1] bcast_S64_S1x64_1 : Cn F S64 .f32 → Cn F S1x64 .f32),
    unary main_v2 main_v3 (broadcastInDim S2048x64 ![0, 1] bcast_S1x64_S2048x64_0_1 : Cn F S1x64 .f32 → Cn F S2048x64 .f32),
    binary main_arg2 main_v3 main_v4 (Host.divf : Cn F S2048x64 .f32 → Cn F S2048x64 .f32 → Cn F S2048x64 .f32),
    nullary main_v5 (iotaInDim S64x64 32 0),
    nullary main_v6 (iotaInDim S64x64 32 1),
    nullary main_c (constantI S_ 32 0#32),
    unary main_c main_v7 (broadcastInDim S64x64 ![] bcast_S_S64x64 : Cn F S_ .i32 → Cn F S64x64 .i32),
    binary main_v5 main_v7 main_v8 (addi : Cn F S64x64 .i32 → Cn F S64x64 .i32 → Cn F S64x64 .i32),
    binary main_v8 main_v6 main_v9 (cmpi .eq : Cn F S64x64 .i32 → Cn F S64x64 .i32 → Cn F S64x64 .i1),
    unary main_v9 main_v10 (uitofp .f32 : Cn F S64x64 .i1 → Cn F S64x64 .f32),
    unary main_v10 main_v11 ((extractStridedSlice S32x64 ![32, 0] · slices_S64x64_S32x64_32_0) : Cn F S64x64 .f32 → Cn F S32x64 .f32),
    unary main_v10 main_v12 ((extractStridedSlice S32x64 ![0, 0] · slices_S64x64_S32x64_0_0) : Cn F S64x64 .f32 → Cn F S32x64 .f32),
    unary main_v12 main_v13 (Host.negf : Cn F S32x64 .f32 → Cn F S32x64 .f32),
    binary main_v11 main_v13 main_v14 ((fun a b => concatenate S64x64 0 [⟨S32x64, a⟩, ⟨S32x64, b⟩] concatenates_S32x64_S32x64_S64x64_d0) : Cn F S32x64 .f32 → Cn F S32x64 .f32 → Cn F S64x64 .f32),
    nullary main_cst_0 (constant S_ .f32 0x00000000#32),
    unary main_cst_0 main_v15 (broadcastInDim S32 ![] bcast_S_S32 : Cn F S_ .f32 → Cn F S32 .f32),
    nullary main_cst_1 (constant S_ .f32 0x3F800000#32),
    unary main_cst_1 main_v16 (broadcastInDim S32 ![] bcast_S_S32 : Cn F S_ .f32 → Cn F S32 .f32),
    binary main_v15 main_v16 main_v17 ((fun a b => concatenate S64 0 [⟨S32, a⟩, ⟨S32, b⟩] concatenates_S32_S32_S64_d0) : Cn F S32 .f32 → Cn F S32 .f32 → Cn F S64 .f32),
    reshape main_arg4 main_v18 rfl shapeCasts_S1_S_,
    binary main_v18 main_v18 main_v19 (mulf : Cn F S_ .f32 → Cn F S_ .f32 → Cn F S_ .f32),
    TRef.nullary main_call0.cst (constant S_ .f32 0x00000000#32),
    TRef.binary (.of main_v17) main_call0.cst main_call0.v0 (fun x v => pad S64 ![0] ![0] ![0] x v pads_S64_S64_000 h_S_),
    TRef.nullary main_call0.v1 (iotaInDim S64x64 32 0),
    TRef.nullary main_call0.v2 (iotaInDim S64x64 32 1),
    TRef.nullary main_call0.c (constantI S_ 32 0#32),
    TRef.unary main_call0.c main_call0.v3 (broadcastInDim S64x64 ![] bcast_S_S64x64),
    TRef.binary main_call0.v1 main_call0.v3 main_call0.v4 addi,
    TRef.binary main_call0.v4 main_call0.v2 main_call0.v5 (cmpi .eq),
    TRef.unary main_call0.v0 main_call0.v6 (broadcastInDim S64x1 ![0] bcast_S64_S64x1_0),
    TRef.nullary main_call0.cst_0 (constant S_ .f32 0x00000000#32),
    TRef.unary main_call0.v6 main_call0.call0.v0 (broadcastInDim S64x64 ![0, 1] bcast_S64x1_S64x64_0_1),
    TRef.unary main_call0.cst_0 main_call0.call0.v1 (broadcastInDim S64x64 ![] bcast_S_S64x64),
    TRef.ternary main_call0.v5 main_call0.call0.v0 main_call0.call0.v1 main_call0.call0.v2 select,
    unary main_v19 main_v21 (broadcastInDim S64x64 ![] bcast_S_S64x64 : Cn F S_ .f32 → Cn F S64x64 .f32),
    binary main_v21 main_v20 main_v22 (mulf : Cn F S64x64 .f32 → Cn F S64x64 .f32 → Cn F S64x64 .f32),
    binary main_v14 main_v22 main_v23 (subf : Cn F S64x64 .f32 → Cn F S64x64 .f32 → Cn F S64x64 .f32),
    unary main_v23 main_v24 ((transpose S64x64 [1, 0] · transposes_S64x64_S64x64_1_0) : Cn F S64x64 .f32 → Cn F S64x64 .f32),
    binary main_v4 main_v24 main_v25 ((fun l r => Host.dotGeneral dot_S2048x64_S64x64_S2048x64_1_0_0_1_n_n none l r) : Cn F S2048x64 .f32 → Cn F S64x64 .f32 → Cn F S2048x64 .f32),
    nullary main_cst_2 (constant S_ .f32 0x40C90FDB#32),
    unary main_cst_2 main_v26 (broadcastInDim S2048x64 ![] bcast_S_S2048x64 : Cn F S_ .f32 → Cn F S2048x64 .f32),
    binary main_v26 main_v25 main_v27 (mulf : Cn F S2048x64 .f32 → Cn F S2048x64 .f32 → Cn F S2048x64 .f32),
    reshape main_arg1 main_v28 rfl shapeCasts_S8192x1x64_S8192x64,
    unary main_v4 main_v29 ((transpose S64x2048 [1, 0] · transposes_S2048x64_S64x2048_1_0) : Cn F S2048x64 .f32 → Cn F S64x2048 .f32),
    binary main_v28 main_v29 main_v30 ((fun l r => Host.dotGeneral dot_S8192x64_S64x2048_S8192x2048_1_0_0_1_n_n none l r) : Cn F S8192x64 .f32 → Cn F S64x2048 .f32 → Cn F S8192x2048 .f32),
    nullary main_cst_3 (constant S_ .f32 0x40C90FDB#32),
    unary main_cst_3 main_v31 (broadcastInDim S8192x2048 ![] bcast_S_S8192x2048 : Cn F S_ .f32 → Cn F S8192x2048 .f32),
    binary main_v31 main_v30 main_v32 (mulf : Cn F S8192x2048 .f32 → Cn F S8192x2048 .f32 → Cn F S8192x2048 .f32),
    unary main_arg5 main_v33 ((extractStridedSlice S2048 ![0] · slices_S4096_S2048_0) : Cn F S4096 .f32 → Cn F S2048 .f32),
    unary main_arg5 main_v34 ((extractStridedSlice S2048 ![2048] · slices_S4096_S2048_2048) : Cn F S4096 .f32 → Cn F S2048 .f32),
    unary main_v32 main_v35 (Host.sin : Cn F S8192x2048 .f32 → Cn F S8192x2048 .f32),
    unary main_v35 main_v36 (Host.negf : Cn F S8192x2048 .f32 → Cn F S8192x2048 .f32),
    unary main_v33 main_v37 (broadcastInDim S2048x1 ![0] bcast_S2048_S2048x1_0 : Cn F S2048 .f32 → Cn F S2048x1 .f32),
    unary main_v37 main_v38 (broadcastInDim S2048x64 ![0, 1] bcast_S2048x1_S2048x64_0_1 : Cn F S2048x1 .f32 → Cn F S2048x64 .f32),
    binary main_v27 main_v38 main_v39 (mulf : Cn F S2048x64 .f32 → Cn F S2048x64 .f32 → Cn F S2048x64 .f32),
    binary main_v36 main_v39 main_v40 ((fun l r => Host.dotGeneral dot_S8192x2048_S2048x64_S8192x64_1_0_0_1_n_n none l r) : Cn F S8192x2048 .f32 → Cn F S2048x64 .f32 → Cn F S8192x64 .f32),
    unary main_v32 main_v41 (Host.cos : Cn F S8192x2048 .f32 → Cn F S8192x2048 .f32),
    unary main_v34 main_v42 (broadcastInDim S2048x1 ![0] bcast_S2048_S2048x1_0 : Cn F S2048 .f32 → Cn F S2048x1 .f32),
    unary main_v42 main_v43 (broadcastInDim S2048x64 ![0, 1] bcast_S2048x1_S2048x64_0_1 : Cn F S2048x1 .f32 → Cn F S2048x64 .f32),
    binary main_v27 main_v43 main_v44 (mulf : Cn F S2048x64 .f32 → Cn F S2048x64 .f32 → Cn F S2048x64 .f32),
    binary main_v41 main_v44 main_v45 ((fun l r => Host.dotGeneral dot_S8192x2048_S2048x64_S8192x64_1_0_0_1_n_n none l r) : Cn F S8192x2048 .f32 → Cn F S2048x64 .f32 → Cn F S8192x64 .f32),
    binary main_v40 main_v45 main_v46 (addf : Cn F S8192x64 .f32 → Cn F S8192x64 .f32 → Cn F S8192x64 .f32),
    reshape main_v46 main_v47 rfl shapeCasts_S8192x64_S8192x1x64 ]

-- sixty-six sequencing steps to re-associate: the rewriting recurses once per step
set_option maxRecDepth 2048 in
/-- The reference's entry point is that straight line: the two called functions unfolded at their calls, what is left is
    one chain of steps once the sequencing is re-associated. -/
theorem main_eq (c : Dev nD) : main (F := F) c = seq ops := by
  simp only [main, fn_diag.body, fn_where.body, seq, bind_assoc, pure_bind]

/-- No buffer and no semaphore of the reference is scoped: it launches nothing. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub ..,
    nullary_bufs_sub .., nullary_bufs_sub .., nullary_bufs_sub .., unary_bufs_sub .., binary_bufs_sub .., binary_bufs_sub ..,
    unary_bufs_sub .., unary_bufs_sub .., unary_bufs_sub .., unary_bufs_sub .., binary_bufs_sub .., nullary_bufs_sub ..,
    unary_bufs_sub .., nullary_bufs_sub .., unary_bufs_sub .., binary_bufs_sub .., reshape_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub ..,
    unary_bufs_sub .., binary_bufs_sub .., binary_bufs_sub .., unary_bufs_sub .., binary_bufs_sub .., nullary_bufs_sub ..,
    unary_bufs_sub .., binary_bufs_sub .., reshape_bufs_sub .., unary_bufs_sub .., binary_bufs_sub .., nullary_bufs_sub ..,
    unary_bufs_sub .., binary_bufs_sub .., unary_bufs_sub .., unary_bufs_sub .., unary_bufs_sub .., unary_bufs_sub ..,
    unary_bufs_sub .., unary_bufs_sub .., binary_bufs_sub .., binary_bufs_sub .., unary_bufs_sub .., unary_bufs_sub ..,
    unary_bufs_sub .., binary_bufs_sub .., binary_bufs_sub .., binary_bufs_sub .., reshape_bufs_sub ..⟩

/-- From any memory with zero counters, every weakly fair execution of the reference terminates, and every buffer of the
    device ends at the fold of the operations' results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.ReferenceFeatures.lean ====
/-
  The reference's table of features, entry by entry.

  From the reshaped input `X` (8192 rows), the frequency table `S` and the two weight tables `MS`, `MC`, the reference
  forms the phases of all rows at once, `2π · (X · Sᵀ)`, and then `(−sin φ) · MS + cos φ · MC` with plain products.
  Read at `(n, q)` this is the feature of row `n` in column `q`: the transposed table at `(j, k)` is `S (k, j)`, each
  product is the sum over its shared axis, the host's sine, cosine and negation are the functions on the extended reals.
-/
import proofs.«128586_j44787918963385_1_alg».proof.ReferenceIdeal
import proofs.«128586_j44787918963385_1_alg».proof.Proof.Features
import Idealize.ShloMosaic.Lib.Pipeline.Value
import Idealize.ShloMosaic.Lib.ValueIdx

noncomputable section

namespace Cert.ReferenceIdeal.Body

open Cert.ReferenceIdeal Cert.ReferenceIdeal.Facts₀ Cert.Features
open Idealize.ShloMosaic Idealize.ShloMosaic.ValueIdx Idealize.ShloMosaic.Pipeline

variable [Cert.ReferenceIdeal.Facts]

/-- The phases of all rows: `2π` times the product of the input with the transposed frequency table. -/
def allPhase (X : FVec Ideal S8192x64 .f32) (S : FVec Ideal S2048x64 .f32) : FVec Ideal S8192x2048 .f32 :=
  mulf (broadcastInDim S8192x2048 ![] bcast_S_S8192x2048 (constant (F := Ideal) S_ .f32 0x40C90FDB#32))
    (Host.dotGeneral dot_S8192x64_S64x2048_S8192x2048_1_0_0_1_n_n none X
      (transpose S64x2048 [1, 0] S transposes_S2048x64_S64x2048_1_0))

/-- The reference's table: minus-sine of the phases times `MS` plus cosine of the phases times `MC`. -/
def table (X : FVec Ideal S8192x64 .f32) (S MS MC : FVec Ideal S2048x64 .f32) : FVec Ideal S8192x64 .f32 :=
  addf
    (Host.dotGeneral dot_S8192x2048_S2048x64_S8192x64_1_0_0_1_n_n none (Host.negf (Host.sin (allPhase X S))) MS)
    (Host.dotGeneral dot_S8192x2048_S2048x64_S8192x64_1_0_0_1_n_n none (Host.cos (allPhase X S)) MC)

/-- A phase at `(n, k)`: row `n` of the input against frequency row `k`. -/
theorem allPhase_at (X : FVec Ideal S8192x64 .f32) (S : FVec Ideal S2048x64 .f32) (n : Fin 8192) (k : Fin 2048) :
    allPhase X S (ix2 n k) = phase X S n k := by
  unfold allPhase phase
  refine (mulf_apply _ _ _).trans ?_
  refine congrArg (twoPi * ·) ?_
  refine (dotGeneral_at dot_S8192x64_S64x2048_S8192x2048_1_0_0_1_n_n none rfl rfl
    (fun _ _ => rfl) (fun _ _ => rfl) (fun _ _ => rfl) (fun _ _ => rfl) X _ n k).trans ?_
  refine Finset.sum_congr rfl fun j _ => ?_
  refine congrArg (X (ix2 n j) * ·) ?_
  exact transpose_apply [1, 0] S transposes_S2048x64_S64x2048_1_0 (ix2 j k) (ix2 k j) fun b => by
    match b with
    | ⟨0, _⟩ => rfl
    | ⟨1, _⟩ => rfl

/-- The reference's table is the table of features. -/
theorem table_eq (X : FVec Ideal S8192x64 .f32) (S MS MC : FVec Ideal S2048x64 .f32) :
    table X S MS MC = feat X S MS MC := by
  funext i
  obtain ⟨n, q, rfl⟩ : ∃ (n : Fin 8192) (q : Fin 64), i = ix2 n q := ⟨i 0, i 1, eq_ix2 i⟩
  unfold table
  refine (addf_apply _ _ _).trans ?_
  show _ + _ = (∑ k : Fin 2048, (-Ideal.sin (phase X S n k)) * MS (ix2 k q))
    + ∑ k : Fin 2048, Ideal.cos (phase X S n k) * MC (ix2 k q)
  refine congrArg₂ (· + ·) ?_ ?_
  · refine (dotGeneral_at dot_S8192x2048_S2048x64_S8192x64_1_0_0_1_n_n none rfl rfl
      (fun _ _ => rfl) (fun _ _ => rfl) (fun _ _ => rfl) (fun _ _ => rfl) _ MS n q).trans ?_
    refine Finset.sum_congr rfl fun k _ => ?_
    refine congrArg (· * MS (ix2 k q)) ?_
    show -Ideal.sin (allPhase X S (ix2 n k)) = -Ideal.sin (phase X S n k)
    rw [allPhase_at]
  · refine (dotGeneral_at dot_S8192x2048_S2048x64_S8192x64_1_0_0_1_n_n none rfl rfl
      (fun _ _ => rfl) (fun _ _ => rfl) (fun _ _ => rfl) (fun _ _ => rfl) _ MC n q).trans ?_
    refine Finset.sum_congr rfl fun k _ => ?_
    refine congrArg (· * MC (ix2 k q)) ?_
    show Ideal.cos (allPhase X S (ix2 n k)) = Ideal.cos (phase X S n k)
    rw [allPhase_at]

end Cert.ReferenceIdeal.Body

end
-- ==== Proof.Bridge.lean ====
/-
  The two programs meet.

  Both programs apply the same host operations to the same arguments to get the reshaped input, the frequency table
  and the two weight tables; the kernel's program then launches the kernel on them and the reference goes on with plain
  array operations. So: (1) the reference's result buffer is the table of features (re-laid) of four of its own
  intermediate buffers; (2) each of those four holds what the kernel's launch finds in the corresponding array, when
  the two programs start from the same arguments — both sides are the same composition of the same operations, read
  off the two operation lists; (3) the reference writes none of its arguments.
-/
import proofs.«128586_j44787918963385_1_alg».proof.Proof.KernelRun
import proofs.«128586_j44787918963385_1_alg».proof.Proof.ReferenceLine
import proofs.«128586_j44787918963385_1_alg».proof.Proof.ReferenceFeatures

noncomputable section

namespace Cert.Proof.Bridge

open Idealize.ShloMosaic Idealize.ShloMosaic.TcCoe Idealize.SL.Sem Idealize.ShloMosaic.StableHlo Cert.Features

/-- The reference's result buffer is the table of features, re-laid, of its reshaped input, its frequency table and its
    two weight tables. -/
theorem ref_result (W : Valuation Cert.ReferenceIdeal.τ Cert.ReferenceIdeal.sig (Elt Ideal)) :
    after Cert.ReferenceIdeal.Line.ops W (Proc.devRef .tc Cert.ReferenceIdeal.main_v47)
      = result (after Cert.ReferenceIdeal.Line.ops W (Proc.devRef .tc Cert.ReferenceIdeal.main_v28))
          (after Cert.ReferenceIdeal.Line.ops W (Proc.devRef .tc Cert.ReferenceIdeal.main_v4))
          (after Cert.ReferenceIdeal.Line.ops W (Proc.devRef .tc Cert.ReferenceIdeal.main_v39))
          (after Cert.ReferenceIdeal.Line.ops W (Proc.devRef .tc Cert.ReferenceIdeal.main_v44)) := by
  unfold result
  rw [← Cert.ReferenceIdeal.Body.table_eq]
  unfold Cert.ReferenceIdeal.Body.table Cert.ReferenceIdeal.Body.allPhase
  after_results_simp
  rfl

/-- The reference writes none of its arguments. -/
theorem ref_kept (W : Valuation Cert.ReferenceIdeal.τ Cert.ReferenceIdeal.sig (Elt Ideal)) :
    after Cert.ReferenceIdeal.Line.ops W (Proc.devRef .tc Cert.ReferenceIdeal.main_arg0) = W (Proc.devRef .tc Cert.ReferenceIdeal.main_arg0)
    ∧ after Cert.ReferenceIdeal.Line.ops W (Proc.devRef .tc Cert.ReferenceIdeal.main_arg1) = W (Proc.devRef .tc Cert.ReferenceIdeal.main_arg1)
    ∧ after Cert.ReferenceIdeal.Line.ops W (Proc.devRef .tc Cert.ReferenceIdeal.main_arg2) = W (Proc.devRef .tc Cert.ReferenceIdeal.main_arg2)
    ∧ after Cert.ReferenceIdeal.Line.ops W (Proc.devRef .tc Cert.ReferenceIdeal.main_arg3) = W (Proc.devRef .tc Cert.ReferenceIdeal.main_arg3)
    ∧ after Cert.ReferenceIdeal.Line.ops W (Proc.devRef .tc Cert.ReferenceIdeal.main_arg4) = W (Proc.devRef .tc Cert.ReferenceIdeal.main_arg4)
    ∧ after Cert.ReferenceIdeal.Line.ops W (Proc.devRef .tc Cert.ReferenceIdeal.main_arg5) = W (Proc.devRef .tc Cert.ReferenceIdeal.main_arg5) := by
  refine ⟨?_, ?_, ?_, ?_, ?_, ?_⟩ <;> after_results_simp

section Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reshaped input is the same array in both programs. -/
theorem agree_x
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (after Cert.ReferenceIdeal.Line.ops (launchContents m' c) (Proc.devRef .tc Cert.ReferenceIdeal.main_v28) : (⟨2, ![8192, 64]⟩ : Shape).Idx → EReal)
      = Cert.KernelIdeal.Gen.V m c Cert.KernelIdeal.main_v36 := by
  have e1 : launchContents m' c (Proc.devRef .tc Cert.ReferenceIdeal.main_arg1) = m ((c.tc : Thread Cert.KernelIdeal.nD Cert.KernelIdeal.τ).loc Cert.KernelIdeal.main_arg1) := h1
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rw [e1]
  rfl

/-- The frequency table is the same array in both programs. -/
theorem agree_s
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (after Cert.ReferenceIdeal.Line.ops (launchContents m' c) (Proc.devRef .tc Cert.ReferenceIdeal.main_v4) : (⟨2, ![2048, 64]⟩ : Shape).Idx → EReal)
      = Cert.KernelIdeal.Gen.V m c Cert.KernelIdeal.main_v4 := by
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rw [e2, e3]

/-- The sine weights `mat · w_s` are the same array in both programs. -/
theorem agree_ms
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (after Cert.ReferenceIdeal.Line.ops (launchContents m' c) (Proc.devRef .tc Cert.ReferenceIdeal.main_v39) : (⟨2, ![2048, 64]⟩ : Shape).Idx → EReal)
      = Cert.KernelIdeal.Gen.V m c Cert.KernelIdeal.main_v32 := by
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rw [e2, e3, e4, e5]
  all_goals rfl

/-- The cosine weights `mat · w_c` are the same array in both programs. -/
theorem agree_mc
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (after Cert.ReferenceIdeal.Line.ops (launchContents m' c) (Proc.devRef .tc Cert.ReferenceIdeal.main_v44) : (⟨2, ![2048, 64]⟩ : Shape).Idx → EReal)
      = Cert.KernelIdeal.Gen.V m c Cert.KernelIdeal.main_v35 := by
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  dsimp only [Cert.KernelIdeal.Gen.V, Cert.KernelIdeal.Gen.V0]
  simp only [Cert.KernelIdeal.Gen.hostOps0, Cert.KernelIdeal.Gen.hostOps0_1, Cert.KernelIdeal.Gen.hostOps0_2,
    List.flatten_cons, List.flatten_nil, List.append_nil, List.cons_append, List.nil_append]
  after_results_simp
  rw [e2, e3, e4, e5]
  all_goals rfl

end Agree

end Cert.Proof.Bridge

end
-- ==== Proof.lean ====
/-
  The kernel computes the reference's random trigonometric features.

  Both programs take a time `t` (unused), 8192 points `x` of dimension 64, 2048 random directions `ε`, length scales `λ`,
  a noise level `η` and 4096 weights `w`. From them both form, with the same host operations, the frequency table
  `s = ε / (2π·λ)`, the `64 × 64` array `A = M − η²·diag r`, the table `mat = 2π · (s · Aᵀ)` and the weight tables
  `mat · w_s`, `mat · w_c` (`w_s`, `w_c` the two halves of `w`). The result is, for point `n` and column `q`,
      `∑ k, (−sin φ(n,k)) · (mat·w_s)(k,q)  +  ∑ k, cos φ(n,k) · (mat·w_c)(k,q)`,   `φ(n,k) = 2π · ∑ j, x(n,j) · s(k,j)`.
  The reference computes it for all points at once; the kernel takes the points 512 at a time over a grid of 16 steps,
  keeps the three tables whole at every step, writes `0 − sin φ` for `−sin φ` and accumulates each product into a zero
  array. On the extended reals these are the same function of the same arrays, entry by entry: a product contracted over
  an axis is the sum over that axis however it is tiled or accumulated, and `0 − y = −y` for every `y`, infinite or not;
  so nothing is asked of the inputs and the precondition is never opened. The idealization rewrote no operation
  (`preserves` is `True`).

  The kernel's frames are the generated ones; the reference launches nothing, so its frame is its run as a straight
  line of operations, none of which writes an argument.
-/
import proofs.«128586_j44787918963385_1_alg».proof.Defs
import proofs.«128586_j44787918963385_1_alg».proof.Proof.Gen.Kernel
import proofs.«128586_j44787918963385_1_alg».proof.Proof.Gen.Kernel.Skeleton
import proofs.«128586_j44787918963385_1_alg».proof.Proof.Gen.Kernel.Launch
import proofs.«128586_j44787918963385_1_alg».proof.Proof.Gen.Kernel.Points
import proofs.«128586_j44787918963385_1_alg».proof.Proof.Gen.Kernel.Frame
import proofs.«128586_j44787918963385_1_alg».proof.Proof.Gen.KernelIdeal
import proofs.«128586_j44787918963385_1_alg».proof.Proof.Gen.KernelIdeal.Skeleton
import proofs.«128586_j44787918963385_1_alg».proof.Proof.Gen.KernelIdeal.Launch
import proofs.«128586_j44787918963385_1_alg».proof.Proof.Gen.KernelIdeal.Points
import proofs.«128586_j44787918963385_1_alg».proof.Proof.Gen.KernelIdeal.Frame
import proofs.«128586_j44787918963385_1_alg».proof.Proof.Gen.ReferenceIdeal
import proofs.«128586_j44787918963385_1_alg».proof.Proof.Gen.Pre_finite_inputs
import proofs.«128586_j44787918963385_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo Cert.Features

/-- The kernel's program as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs as its line of operations, none of which writes an argument. -/
theorem frame_ri : Cert.frame_ReferenceIdeal := fun m ρ _ =>
  (θ_run Cert.ReferenceIdeal.defs _ _).mono (fun _ h c =>
    ⟨(h c Cert.ReferenceIdeal.main_arg0).trans (Bridge.ref_kept _).1,
      (h c Cert.ReferenceIdeal.main_arg1).trans (Bridge.ref_kept _).2.1,
      (h c Cert.ReferenceIdeal.main_arg2).trans (Bridge.ref_kept _).2.2.1,
      (h c Cert.ReferenceIdeal.main_arg3).trans (Bridge.ref_kept _).2.2.2.1,
      (h c Cert.ReferenceIdeal.main_arg4).trans (Bridge.ref_kept _).2.2.2.2.1,
      (h c Cert.ReferenceIdeal.main_arg5).trans (Bridge.ref_kept _).2.2.2.2.2⟩)
    (Cert.ReferenceIdeal.Line.run (F := Ideal) m ρ)

/-- The idealization rewrote nothing. -/
theorem preserves : Cert.preserves_Kernel_KernelIdeal := trivial

/-- From the same arguments the two idealized programs end with the same result: the table of features of the reshaped
    input, the frequency table and the two weight tables, which are the same arrays in both. -/
theorem algebraic : Cert.algebraic_KernelIdeal_ReferenceIdeal := by
  intro m ρ m' ρ' _ hagree
  refine ⟨fun c => result (Cert.KernelIdeal.Gen.V m c Cert.KernelIdeal.main_v36) (Cert.KernelIdeal.Gen.V m c Cert.KernelIdeal.main_v4)
      (Cert.KernelIdeal.Gen.V m c Cert.KernelIdeal.main_v32) (Cert.KernelIdeal.Gen.V m c Cert.KernelIdeal.main_v35),
    Cert.KernelIdeal.Whole.run m ρ, ?_⟩
  refine (θ_run Cert.ReferenceIdeal.defs _ _).mono (fun _ h c =>
    ⟨?_, (h c Cert.ReferenceIdeal.main_arg0).trans (Bridge.ref_kept _).1,
      (h c Cert.ReferenceIdeal.main_arg1).trans (Bridge.ref_kept _).2.1,
      (h c Cert.ReferenceIdeal.main_arg2).trans (Bridge.ref_kept _).2.2.1,
      (h c Cert.ReferenceIdeal.main_arg3).trans (Bridge.ref_kept _).2.2.2.1,
      (h c Cert.ReferenceIdeal.main_arg4).trans (Bridge.ref_kept _).2.2.2.2.1,
      (h c Cert.ReferenceIdeal.main_arg5).trans (Bridge.ref_kept _).2.2.2.2.2⟩)
    (Cert.ReferenceIdeal.Line.run (F := Ideal) m' ρ')
  obtain ⟨-, a1, a2, a3, a4, a5⟩ := hagree c
  refine (h c Cert.ReferenceIdeal.main_v47).trans ?_
  rw [Bridge.ref_result, Bridge.agree_x m m' c a1, Bridge.agree_s m m' c a2 a3, Bridge.agree_ms m m' c a2 a3 a4 a5,
    Bridge.agree_mc m m' c a2 a3 a4 a5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
